-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x5000x256 : Shape := ⟨3, ![50, 5000, 256]⟩
abbrev S256x256 : Shape := ⟨2, ![256, 256]⟩
abbrev S256 : Shape := ⟨1, ![256]⟩
abbrev S_ : Shape := ⟨0, ![]⟩

class Facts : Prop where
  bcast_S_S50x5000x256 : S_.BroadcastsInDim S50x5000x256 (![] : Fin 0 → Fin S50x5000x256.rank)
  reducesTo_S50x5000x256_S_d0_1_2 : S50x5000x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50x5000x256 .f32) (main_arg1 : FVec F S256x256 .f32) (main_arg2 : FVec F S256 .f32) : IVec S_ 1 :=
  let main_v0 : FVec F S50x5000x256 .f32 := Host.absf main_arg0
  let main_cst : FVec F S_ .f32 := constant S_ .f32 0x7F800000#32
  let main_v1 : FVec F S50x5000x256 .f32 := broadcastInDim S50x5000x256 ![] bcast_S_S50x5000x256 main_cst
  let main_v2 : IVec S50x5000x256 1 := cmpf .olt main_v0 main_v1
  let main_c : IVec S_ 1 := constantI S_ 1 1#1
  let main_v3 : IVec S_ 1 := (fun x v => Host.reduce IntOp.andi x v reducesTo_S50x5000x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50x5000x256 : Shape := ⟨3, ![50, 5000, 256]⟩
abbrev S256x256 : Shape := ⟨2, ![256, 256]⟩
abbrev S256 : Shape := ⟨1, ![256]⟩
abbrev S1x256 : Shape := ⟨2, ![1, 256]⟩
abbrev S1x5000x256 : Shape := ⟨3, ![1, 5000, 256]⟩
abbrev S1x1000x256 : Shape := ⟨3, ![1, 1000, 256]⟩
abbrev S1000x256 : Shape := ⟨2, ![1000, 256]⟩

abbrev nBuf : Space → Nat
  | .hbm => 7
  | .vmem => 7
  | .smem => 0
  | _ => 0

abbrev bufTy : (tb : Table) → Fin (tcTables nBuf tb) → BufTy
  | .hbm, ⟨0, _⟩ => ⟨S50x5000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256x256, .bf16⟩
  | .hbm, ⟨5, _⟩ => ⟨S1x256, .f32⟩
  | .hbm, ⟨6, _⟩ => ⟨S50x5000x256, .f32⟩
  | .local _ .vmem, ⟨0, _⟩ => ⟨S1x5000x256, .f32⟩
  | .local _ .vmem, ⟨1, _⟩ => ⟨S1x5000x256, .f32⟩
  | .local _ .vmem, ⟨2, _⟩ => ⟨S256x256, .bf16⟩
  | .local _ .vmem, ⟨3, _⟩ => ⟨S256x256, .f32⟩
  | .local _ .vmem, ⟨4, _⟩ => ⟨S1x256, .f32⟩
  | .local _ .vmem, ⟨5, _⟩ => ⟨S1x5000x256, .f32⟩
  | .local _ .vmem, ⟨6, _⟩ => ⟨S1x5000x256, .f32⟩
  | _, _ => ⟨S50x5000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_mult1 : BitVec 32 :=
  let c0_i32 : BitVec 32 := 0#32
  let c1000_i32 : BitVec 32 := 1000#32
  let v1 : BitVec 32 := Scalar.muli c0_i32 c1000_i32
  v1
def k0_off1 (c0_i32 : BitVec 32) : Fin 3 → Nat :=
  let c0 : Index := 0#32
  let c1000_i32 : BitVec 32 := 1000#32
  let v1 : BitVec 32 := Scalar.muli c0_i32 c1000_i32
  let v2 : BitVec 32 := v1
  let v3 : Index := Scalar.indexCast v2
  let c0_0 : Index := 0#32
  ![0, v3.toNat, 0]
def k0_mult2 : BitVec 32 :=
  let c1_i32 : BitVec 32 := 1#32
  let c1000_i32_2 : BitVec 32 := 1000#32
  let v9 : BitVec 32 := Scalar.muli c1_i32 c1000_i32_2
  v9
def k0_mult3 : BitVec 32 :=
  let c2_i32 : BitVec 32 := 2#32
  let c1000_i32_6 : BitVec 32 := 1000#32
  let v17 : BitVec 32 := Scalar.muli c2_i32 c1000_i32_6
  v17
def k0_mult4 : BitVec 32 :=
  let c3_i32 : BitVec 32 := 3#32
  let c1000_i32_10 : BitVec 32 := 1000#32
  let v25 : BitVec 32 := Scalar.muli c3_i32 c1000_i32_10
  v25
def k0_mult5 : BitVec 32 :=
  let c4_i32 : BitVec 32 := 4#32
  let c1000_i32_14 : BitVec 32 := 1000#32
  let v33 : BitVec 32 := Scalar.muli c4_i32 c1000_i32_14
  v33
def k0_mult6 : BitVec 32 :=
  let c0_i32_23 : BitVec 32 := 0#32
  let c1000_i32_24 : BitVec 32 := 1000#32
  let v47 : BitVec 32 := Scalar.muli c0_i32_23 c1000_i32_24
  v47
def k0_mult7 : BitVec 32 :=
  let c1_i32_32 : BitVec 32 := 1#32
  let c1000_i32_33 : BitVec 32 := 1000#32
  let v62 : BitVec 32 := Scalar.muli c1_i32_32 c1000_i32_33
  v62
def k0_mult8 : BitVec 32 :=
  let c2_i32_41 : BitVec 32 := 2#32
  let c1000_i32_42 : BitVec 32 := 1000#32
  let v77 : BitVec 32 := Scalar.muli c2_i32_41 c1000_i32_42
  v77
def k0_mult9 : BitVec 32 :=
  let c3_i32_50 : BitVec 32 := 3#32
  let c1000_i32_51 : BitVec 32 := 1000#32
  let v92 : BitVec 32 := Scalar.muli c3_i32_50 c1000_i32_51
  v92
def k0_mult10 : BitVec 32 :=
  let c4_i32_59 : BitVec 32 := 4#32
  let c1000_i32_60 : BitVec 32 := 1000#32
  let v107 : BitVec 32 := Scalar.muli c4_i32_59 c1000_i32_60
  v107
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  h_S1x1000x256 : 0 < S1x1000x256.numel
  shapeCasts_S1x1000x256_S1000x256 : S1x1000x256.ShapeCasts S1000x256
  reduces_S1000x256_S256 : S1000x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S1000x256_S1x1000x256 : S1000x256.ShapeCasts S1x1000x256
  dot_S1x256_S256x256_S1x256_1_0_0_1_n_n_wf : DotDims.WF S1x256 S256x256 S1x256 [1] [0] [0] [1] [] []
  dot_S1000x256_S256x256_S1000x256_1_0_0_1_n_n_wf : DotDims.WF S1000x256 S256x256 S1000x256 [1] [0] [0] [1] [] []
  hrank0 : 0 < grid0.rank
  k0_mult1_dvd : 1000 ∣ k0_mult1.toNat
  k0_off1_inb : ∀ (r : Fin 5), ∀ a, (k0_off1 (BitVec.ofNat 32 r.val)) a + S1x1000x256.size a ≤ S1x5000x256.size a
  k0_mult2_dvd : 1000 ∣ k0_mult2.toNat
  k0_mult3_dvd : 1000 ∣ k0_mult3.toNat
  k0_mult4_dvd : 1000 ∣ k0_mult4.toNat
  k0_mult5_dvd : 1000 ∣ k0_mult5.toNat
  k0_mult6_dvd : 1000 ∣ k0_mult6.toNat
  k0_mult7_dvd : 1000 ∣ k0_mult7.toNat
  k0_mult8_dvd : 1000 ∣ k0_mult8.toNat
  k0_mult9_dvd : 1000 ∣ k0_mult9.toNat
  k0_mult10_dvd : 1000 ∣ k0_mult10.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S50x5000x256.size a
  hwx0_0 : ∀ i : grid0.Coords, EltTy.bits .f32 = 32 ∨ (Rect.block (s := S50x5000x256) S1x5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5000x256.size a ≤ S50x5000x256.size a
  hwx0_4 : ∀ i : grid0.Coords, EltTy.bits .f32 = 32 ∨ (Rect.block (s := S50x5000x256) S1x5000x256.size (cc0_transform_4 i) (hinb0_4 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50x5000x256 : Shape := ⟨3, ![50, 5000, 256]⟩
abbrev S256x256 : Shape := ⟨2, ![256, 256]⟩
abbrev S256 : Shape := ⟨1, ![256]⟩
abbrev S_ : Shape := ⟨0, ![]⟩
abbrev S50x256 : Shape := ⟨2, ![50, 256]⟩
abbrev S50x1x256 : Shape := ⟨3, ![50, 1, 256]⟩
abbrev S1x1x256 : Shape := ⟨3, ![1, 1, 256]⟩

abbrev nBuf : Space → Nat
  | .hbm => 12
  | .vmem => 0
  | .smem => 0
  | _ => 0

abbrev bufTy : (tb : Table) → Fin (tcTables nBuf tb) → BufTy
  | .hbm, ⟨0, _⟩ => ⟨S50x5000x256, .f32⟩
  | .hbm, ⟨1, _⟩ => ⟨S256x256, .f32⟩
  | .hbm, ⟨2, _⟩ => ⟨S256, .f32⟩
  | .hbm, ⟨3, _⟩ => ⟨S_, .f32⟩
  | .hbm, ⟨4, _⟩ => ⟨S50x256, .f32⟩
  | .hbm, ⟨5, _⟩ => ⟨S50x1x256, .f32⟩
  | .hbm, ⟨6, _⟩ => ⟨S50x5000x256, .f32⟩
  | .hbm, ⟨7, _⟩ => ⟨S50x5000x256, .f32⟩
  | .hbm, ⟨8, _⟩ => ⟨S50x5000x256, .f32⟩
  | .hbm, ⟨9, _⟩ => ⟨S1x1x256, .f32⟩
  | .hbm, ⟨10, _⟩ => ⟨S50x5000x256, .f32⟩
  | .hbm, ⟨11, _⟩ => ⟨S50x5000x256, .f32⟩
  | _, _ => ⟨S50x5000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S50x5000x256_S50x256_d1 : S50x5000x256.ReducesTo [1] S50x256
  h_S_ : 0 < S_.numel
  bcast_S50x256_S50x1x256_0_2 : S50x256.BroadcastsInDim S50x1x256 (![0, 2] : Fin 2 → Fin S50x1x256.rank)
  bcast_S50x1x256_S50x5000x256_0_1_2 : S50x1x256.BroadcastsInDim S50x5000x256 (![0, 1, 2] : Fin 3 → Fin S50x5000x256.rank)
  bcast_S256_S1x1x256_2 : S256.BroadcastsInDim S1x1x256 (![2] : Fin 1 → Fin S1x1x256.rank)
  bcast_S1x1x256_S50x5000x256_0_1_2 : S1x1x256.BroadcastsInDim S50x5000x256 (![0, 1, 2] : Fin 3 → Fin S50x5000x256.rank)
  dot_S50x5000x256_S256x256_S50x5000x256_2_1_01_0_n_n_wf : DotDims.WF S50x5000x256 S256x256 S50x5000x256 [2] [1] [0, 1] [0] [] []

variable [Facts₀]

def dot_S50x5000x256_S256x256_S50x5000x256_2_1_01_0_n_n : DotDims S50x5000x256 S256x256 S50x5000x256 where
  lhsContracting := [2]
  rhsContracting := [1]
  lhsNonContracting := [0, 1]
  rhsNonContracting := [0]
  lhsBatch := []
  rhsBatch := []
  wf := dot_S50x5000x256_S256x256_S50x5000x256_2_1_01_0_n_n_wf

class Facts : Prop extends Facts₀ where

variable [Facts]
-- ==== Proof.Payload.lean ====
/-
  What one grid point's stores hold, read at an index over the extended reals.

  The body projects the block's row total once, t(a) = Σ_d T(d) · Wt(d, a) + β(a) with T(d) the sum over the block's
  5000 rows taken as five chunks of 1000 rows added in order, and then stores five pieces of 1000 rows each, every
  one the same arithmetic of its own chunk: out(r, a) = t(a) − Σ_d chunk(r, d) · Wt(d, a). A change of float format
  is the identity here, a matrix product into a zero accumulator is its plain sum, a sum along one axis is a plain sum.
-/
import proofs.«140007_j80590766342917_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.GcnKernel

open Idealize.ShloMosaic Idealize.ShloMosaic.ValueIdx Cert.KernelIdeal Cert.KernelIdeal.Gen

/-! ## Five stores, one arithmetic -/

section AnyInstance

variable {F : FTy → Type} [FloatOps F]

theorem pay1_eq (t : FVec F S1x256 .f32) (ch : Vec F S1x1000x256 .f32) (w : Vec F S256x256 .bf16) :
    k0_pay1 t ch w = k0_pay8 t ch w := rfl

theorem pay9_eq (t : FVec F S1x256 .f32) (ch : Vec F S1x1000x256 .f32) (w : Vec F S256x256 .bf16) :
    k0_pay9 t ch w = k0_pay8 t ch w := rfl

/-- The first piece recomputes the projected total in place. -/
theorem pay4_eq (s : FVec F S1x256 .f32) (c4 : Vec F S1x1000x256 .f32) (wf : Vec F S256x256 .f32) (b : Vec F S1x256 .f32)
    (ch : Vec F S1x1000x256 .f32) (w : Vec F S256x256 .bf16) :
    k0_pay4 s c4 wf b ch w = k0_pay8 (k0_pay3 s c4 wf b) ch w := rfl

/-- The second piece takes its two matrix operands and the zero accumulator already formed. -/
theorem pay7_eq (t : FVec F S1x256 .f32) (ch : Vec F S1x1000x256 .f32) (w : Vec F S256x256 .bf16) :
    k0_pay7 t (k0_pay5 ch) (k0_pay6 w) (constant S1000x256 .f32 0x00000000#32) = k0_pay8 t ch w := rfl

end AnyInstance

/-! ## The matrix products as plain sums -/

/-! Where the two operands are read for one output entry and one contraction position: the left operand at the
    entry's row and the position, the right operand at the position and the entry's column. -/

theorem chunkDims_lhs0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem chunkDims_lhs1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem chunkDims_rhs0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem chunkDims_rhs1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

theorem rowDims_lhs0 (i : S1x256.Idx) (q : dot_S1x256_S256x256_S1x256_1_0_0_1_n_n.contr.Idx) : (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem rowDims_lhs1 (i : S1x256.Idx) (q : dot_S1x256_S256x256_S1x256_1_0_0_1_n_n.contr.Idx) : (dot_S1x256_S256x256_S1x256_1_0_0_1_n_n.lhsIdx i q 1).val = (q ⟨0, by decide⟩).val :=
  dot_S1x256_S256x256_S1x256_1_0_0_1_n_n.lhsIdx_val_of_single rfl i q
theorem rowDims_rhs0 (i : S1x256.Idx) (q : dot_S1x256_S256x256_S1x256_1_0_0_1_n_n.contr.Idx) : (dot_S1x256_S256x256_S1x256_1_0_0_1_n_n.rhsIdx i q 0).val = (q ⟨0, by decide⟩).val :=
  dot_S1x256_S256x256_S1x256_1_0_0_1_n_n.rhsIdx_val_of_single rfl i q
theorem rowDims_rhs1 (i : S1x256.Idx) (q : dot_S1x256_S256x256_S1x256_1_0_0_1_n_n.contr.Idx) : (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl

/-- A chunk's product with the transposed weights, into a zero accumulator: entry (r, a) is Σ_d l(r, d) · w(d, a). -/
theorem chunkDot_apply (l : FVec Ideal S1000x256 .bf16) (w : FVec Ideal S256x256 .bf16) (r : Fin 1000) (a : Fin 256) :
    matmul dot_S1000x256_S256x256_S1000x256_1_0_0_1_n_n none l w (constant S1000x256 .f32 0x00000000#32) (ix2 r a)
      = ∑ d : Fin 256, l (ix2 r d) * w (ix2 d a) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 r a) ((contrEquiv1 dot_S1000x256_S256x256_S1000x256_1_0_0_1_n_n 256 rfl rfl).symm k) = ix2 r k := funext fun ax => Fin.ext (by
    match ax with
    | ⟨0, _⟩ => exact chunkDims_lhs0 _ _
    | ⟨1, _⟩ => exact (chunkDims_lhs1 _ _).trans hk)
  have er : dot_S1000x256_S256x256_S1000x256_1_0_0_1_n_n.rhsIdx (ix2 r a) ((contrEquiv1 dot_S1000x256_S256x256_S1000x256_1_0_0_1_n_n 256 rfl rfl).symm k) = ix2 k a := funext fun ax => Fin.ext (by
    match ax with
    | ⟨0, _⟩ => exact (chunkDims_rhs0 _ _).trans hk
    | ⟨1, _⟩ => exact chunkDims_rhs1 _ _)
  rw [el, er]

/-- The row total's product with the transposed weights, into a zero accumulator: entry (0, a) is Σ_d s(0, d) · w(d, a). -/
theorem rowDot_apply (s : FVec Ideal S1x256 .f32) (w : FVec Ideal S256x256 .f32) (a : Fin 256) :
    matmul dot_S1x256_S256x256_S1x256_1_0_0_1_n_n (some .fp32) s w (constant S1x256 .f32 0x00000000#32) (ix2 0 a)
      = ∑ d : Fin 256, s (ix2 0 d) * w (ix2 d a) := by
  simp only [matmul]
  rw [Ideal.matmul_constant_zero_apply, ← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 0 a) ((contrEquiv1 dot_S1x256_S256x256_S1x256_1_0_0_1_n_n 256 rfl rfl).symm k) = ix2 0 k := funext fun ax => Fin.ext (by
    match ax with
    | ⟨0, _⟩ => exact rowDims_lhs0 _ _
    | ⟨1, _⟩ => exact (rowDims_lhs1 _ _).trans hk)
  have er : dot_S1x256_S256x256_S1x256_1_0_0_1_n_n.rhsIdx (ix2 0 a) ((contrEquiv1 dot_S1x256_S256x256_S1x256_1_0_0_1_n_n 256 rfl rfl).symm k) = ix2 k a := funext fun ax => Fin.ext (by
    match ax with
    | ⟨0, _⟩ => exact (rowDims_rhs0 _ _).trans hk
    | ⟨1, _⟩ => exact rowDims_rhs1 _ _)
  rw [el, er]

/-! ## One chunk's column sums -/

/-- A chunk with its unit leading axis dropped, read at (r, d). -/
theorem chunk2_apply (c : Vec Ideal S1x1000x256 .f32) (r : Fin 1000) (d : Fin 256) :
    shapeCast S1000x256 c shapeCasts_S1x1000x256_S1000x256 (ix2 r d) = c (ix3 0 r d) :=
  shapeCast_apply c shapeCasts_S1x1000x256_S1000x256 (ix2 r d) (ix3 0 r d) (by
    rw [Shape.rowMajor_val_three, Shape.rowMajor_val_two]
    show ((0 : ℕ) * 1000 + r.val) * 256 + d.val = r.val * 256 + d.val
    omega)

/-- The sum of a chunk over its 1000 rows, kept as a 1 × 256 row: entry (0, d) is Σ_r c(0, r, d). -/
theorem chunkSum_apply (c : Vec Ideal S1x1000x256 .f32) (d : Fin 256) :
    shapeCast S1x256 (multiReduction (F := Ideal) .add [0] S256 (shapeCast S1000x256 c shapeCasts_S1x1000x256_S1000x256) 0x00000000#32
        reduces_S1000x256_S256 (.inl rfl) rfl) shapeCasts_S256_S1x256 (ix2 0 d)
      = ∑ r : Fin 1000, c (ix3 0 r d) := by
  refine (shapeCast_apply _ shapeCasts_S256_S1x256 (ix2 0 d) (ix1 d) (by
    rw [Shape.rowMajor_val_one, Shape.rowMajor_val_two]
    show d.val = (0 : ℕ) * 256 + d.val
    omega)).trans ?_
  refine (Ideal.multiReduction_add_single (φ := .f32) (shapeCast S1000x256 c shapeCasts_S1x1000x256_S1000x256) 0x00000000#32
    reduces_S1000x256_S256 (.inl rfl) rfl (ix1 d)).trans ?_
  refine Finset.sum_congr rfl fun r _ => ?_
  refine (congrArg (shapeCast S1000x256 c shapeCasts_S1x1000x256_S1000x256) (?_ : _ = ix2 r d)).trans (chunk2_apply c r d)
  refine funext fun ax => Fin.ext ?_
  match ax with
  | ⟨0, _⟩ => rfl
  | ⟨1, _⟩ => rfl

/-! ## The projected row total, and a stored piece -/

/-- The projected total at column a: the five chunk sums added in order from zero, times the transposed weights,
    plus the bias. -/
theorem totalRow_apply (c0 c1 c2 c3 c4 : Vec Ideal S1x1000x256 .f32) (w : Vec Ideal S256x256 .f32) (b : Vec Ideal S1x256 .f32)
    (a : Fin 256) :
    k0_pay3 (k0_pay2 c0 c1 c2 c3) c4 w b (ix2 0 a)
      = (∑ d : Fin 256, ((((∑ r : Fin 1000, c0 (ix3 0 r d)) + ∑ r : Fin 1000, c1 (ix3 0 r d)) + ∑ r : Fin 1000, c2 (ix3 0 r d))
            + (∑ r : Fin 1000, c3 (ix3 0 r d)) + ∑ r : Fin 1000, c4 (ix3 0 r d)) * w (ix2 d a)) + b (ix2 0 a) := by
  unfold k0_pay3
  dsimp only
  rw [addf_apply, shapeCast_self, shapeCast_self, rowDot_apply]
  refine congrArg (· + b (ix2 0 a)) (Finset.sum_congr rfl fun d _ => congrArg (· * w (ix2 d a)) ?_)
  unfold k0_pay2
  dsimp only
  rw [addf_apply, addf_apply, addf_apply, addf_apply, addf_apply, chunkSum_apply, chunkSum_apply, chunkSum_apply, chunkSum_apply,
    chunkSum_apply, broadcast_apply]
  show ((((Ideal.ofBits .f32 0x00000000#32 + _) + _) + _) + _) + _ = _
  rw [Ideal.ofBits_zero_f32, zero_add]

/-- A stored piece at (0, r, a): the projected total at column a less the chunk's row r times the transposed weights. -/
theorem piece_apply (t : FVec Ideal S1x256 .f32) (ch : Vec Ideal S1x1000x256 .f32) (w : Vec Ideal S256x256 .bf16)
    (r : Fin 1000) (a : Fin 256) :
    k0_pay8 t ch w (ix3 0 r a) = t (ix2 0 a) - ∑ d : Fin 256, ch (ix3 0 r d) * w (ix2 d a) := by
  unfold k0_pay8
  refine (shapeCast_apply _ shapeCasts_S1000x256_S1x1000x256 (ix3 0 r a) (ix2 r a) (by
    rw [Shape.rowMajor_val_three, Shape.rowMajor_val_two]
    show r.val * 256 + a.val = ((0 : ℕ) * 1000 + r.val) * 256 + a.val
    omega)).trans ?_
  rw [subf_apply, chunkDot_apply, shapeCast_self]
  refine congrArg₂ (· - ·) ?_ (Finset.sum_congr rfl fun d _ => congrArg (· * w (ix2 d a)) ?_)
  · exact broadcastTo_apply t broadcasts_S1x256_S1000x256 (ix2 r a) (ix2 0 a) (fun ax => by
      match ax with
      | ⟨0, _⟩ => rfl
      | ⟨1, _⟩ => rfl)
  · rw [truncf_apply]
    exact chunk2_apply ch r d

end Cert.GcnKernel

end
-- ==== Proof.Block.lean ====
/-
  What one grid point leaves in its output block, as one function of the point's four input blocks.

  The block x0 is one batch's 5000 rows, x1 and x2 the transposed weights (in the two formats the body reads, one
  array of extended reals here), x3 the bias as a row. The body's five stores are the five 1000-row tiles of
        y ↦ (Σ_d T(d) · x2(d, y₂) + x3(0, y₂)) − Σ_d x0(0, y₁, d) · x1(d, y₂),
  T(d) the block's column total taken chunk by chunk; since the tiles cover the block, the block holds this function.
-/
import proofs.«140007_j80590766342917_2_alg».proof.Proof.Payload
import proofs.«140007_j80590766342917_2_alg».proof.Proof.Gen.KernelIdeal.Frame
import Idealize.ShloMosaic.Lib.Tactic

noncomputable section

namespace Cert.GcnKernel

open Idealize.ShloMosaic Idealize.ShloMosaic.TcCoe Idealize.ShloMosaic.ValueIdx Idealize.SL.Sem Cert.KernelIdeal Cert.KernelIdeal.Gen

/-- The sum of the block's 1000 rows from row o on, at column d. -/
def blockChunk (x0 : Vec Ideal S1x5000x256 .f32) (o : ℕ) (ho : o + 1000 ≤ 5000) (d : Fin 256) : EReal :=
  ∑ r : Fin 1000, x0 (ix3 0 ⟨o + r.val, by have := r.isLt; omega⟩ d)

/-- The block's column total, five chunks added in order. -/
def blockTotal (x0 : Vec Ideal S1x5000x256 .f32) (d : Fin 256) : EReal :=
  (((blockChunk x0 0 (by omega) d + blockChunk x0 1000 (by omega) d) + blockChunk x0 2000 (by omega) d)
    + blockChunk x0 3000 (by omega) d) + blockChunk x0 4000 (by omega) d

/-- The projected total at column a. -/
def blockRow (x0 : Vec Ideal S1x5000x256 .f32) (x2 : Vec Ideal S256x256 .f32) (x3 : Vec Ideal S1x256 .f32) (a : Fin 256) : EReal :=
  (∑ d : Fin 256, blockTotal x0 d * x2 (ix2 d a)) + x3 (ix2 0 a)

/-- The output block. -/
def blockVal (x0 : Vec Ideal S1x5000x256 .f32) (x1 : Vec Ideal S256x256 .bf16) (x2 : Vec Ideal S256x256 .f32)
    (x3 : Vec Ideal S1x256 .f32) : S1x5000x256.Idx → EReal :=
  fun y => blockRow x0 x2 x3 (y 2) - ∑ d : Fin 256, x0 (ix3 0 (y 1) d) * x1 (ix2 d (y 2))

/-- A load of the 1000 rows from row o on reads the block there. -/
theorem chunk_read (X : Vec Ideal S1x5000x256 .f32) (o : ℕ) (ho : o + 1000 ≤ 5000)
    (inb : ∀ a, (![0, o, 0] : Fin S1x5000x256.rank → ℕ) a + (![1, 1000, 256] : Fin S1x5000x256.rank → ℕ) a ≤ S1x5000x256.size a)
    (r : Fin 1000) (d : Fin 256) :
    View.ld X (Rect.unit (s := S1x5000x256) ![0, o, 0] ![1, 1000, 256] inb) (ix3 0 r d)
      = X (ix3 0 ⟨o + r.val, by have := r.isLt; omega⟩ d) :=
  congrArg X (funext fun ax => Fin.ext (by
    match ax with
    | ⟨0, _⟩ => rfl
    | ⟨1, _⟩ => show o + 1 * r.val = o + r.val; omega
    | ⟨2, _⟩ => show 0 + 1 * d.val = d.val; omega))

/-- The projected total the body forms from its five chunk loads is the block's. -/
theorem totalRow_blocks (x0 : Vec Ideal S1x5000x256 .f32) (x2 : Vec Ideal S256x256 .f32) (x3 : Vec Ideal S1x256 .f32)
    (inb0 inb1000 inb2000 inb3000 inb4000) (a : Fin 256) :
    k0_pay3 (k0_pay2 (View.ld x0 (Rect.unit (s := S1x5000x256) ![0, 0, 0] ![1, 1000, 256] inb0)) (View.ld x0 (Rect.unit (s := S1x5000x256) ![0, 1000, 0] ![1, 1000, 256] inb1000)) (View.ld x0 (Rect.unit (s := S1x5000x256) ![0, 2000, 0] ![1, 1000, 256] inb2000)) (View.ld x0 (Rect.unit (s := S1x5000x256) ![0, 3000, 0] ![1, 1000, 256] inb3000)))
        (View.ld x0 (Rect.unit (s := S1x5000x256) ![0, 4000, 0] ![1, 1000, 256] inb4000)) x2 x3 (ix2 0 a) = blockRow x0 x2 x3 a := by
  rw [totalRow_apply]
  unfold blockRow blockTotal blockChunk
  refine congrArg (· + x3 (ix2 0 a)) (Finset.sum_congr rfl fun d _ => congrArg (· * x2 (ix2 d a)) ?_)
  refine congrArg₂ (· + ·) (congrArg₂ (· + ·) (congrArg₂ (· + ·) (congrArg₂ (· + ·) ?_ ?_) ?_) ?_) ?_
  · exact Finset.sum_congr rfl fun r _ => chunk_read x0 0 (by omega) inb0 r d
  · exact Finset.sum_congr rfl fun r _ => chunk_read x0 1000 (by omega) inb1000 r d
  · exact Finset.sum_congr rfl fun r _ => chunk_read x0 2000 (by omega) inb2000 r d
  · exact Finset.sum_congr rfl fun r _ => chunk_read x0 3000 (by omega) inb3000 r d
  · exact Finset.sum_congr rfl fun r _ => chunk_read x0 4000 (by omega) inb4000 r d

/-- A store of the arithmetic of the chunk from row o on, through the rectangle of those rows, is that tile of the
    output block. -/
theorem piece_ok (x0 : Vec Ideal S1x5000x256 .f32) (x1 : Vec Ideal S256x256 .bf16) (x2 : Vec Ideal S256x256 .f32)
    (x3 : Vec Ideal S1x256 .f32) (T : FVec Ideal S1x256 .f32) (hT : ∀ a : Fin 256, T (ix2 0 a) = blockRow x0 x2 x3 a)
    (o : ℕ) (ho : o + 1000 ≤ 5000)
    (inb : ∀ a, (![0, o, 0] : Fin S1x5000x256.rank → ℕ) a + (![1, 1000, 256] : Fin S1x5000x256.rank → ℕ) a ≤ S1x5000x256.size a)
    (x : S1x1000x256.Idx) :
    k0_pay8 T (View.ld x0 (Rect.unit (s := S1x5000x256) ![0, o, 0] ![1, 1000, 256] inb)) x1 x
      = blockVal x0 x1 x2 x3 ((Rect.unit (s := S1x5000x256) ![0, o, 0] ![1, 1000, 256] inb).emb x) := by
  obtain ⟨z, r, a, rfl⟩ : ∃ (z : Fin 1) (r : Fin 1000) (a : Fin 256), x = ix3 z r a := ⟨x 0, x 1, x 2, eq_ix3 x⟩
  obtain rfl : z = 0 := Subsingleton.elim _ _
  rw [piece_apply, hT]
  unfold blockVal
  refine congrArg₂ (· - ·) (congrArg (blockRow x0 x2 x3) (Fin.ext ?_))
    (Finset.sum_congr rfl fun d _ => congrArg₂ (· * ·) ?_ (congrArg x1 (funext fun ax => Fin.ext ?_)))
  · show a.val = 0 + 1 * a.val; omega
  · refine (chunk_read x0 o ho inb r d).trans (congrArg x0 (funext fun ax => Fin.ext ?_))
    match ax with
    | ⟨0, _⟩ => rfl
    | ⟨1, _⟩ => show o + r.val = o + 1 * r.val; omega
    | ⟨2, _⟩ => rfl
  · match ax with
    | ⟨0, _⟩ => rfl
    | ⟨1, _⟩ => show a.val = 0 + 1 * a.val; omega

theorem zero2 : (![0, 0] : Fin 2 → ℕ) = fun _ => 0 := funext fun a => by fin_cases a <;> rfl

/-- The five tiles cover the block, each the tile of the one function: the block holds it. -/
theorem out_eq (c : Dev nD) (i : grid0.Coords) (arg1 : Memref sig .tc .vmem S1x5000x256 .f32) (harg1 : arg1.IsWhole) (arg2 : Memref sig .tc .vmem S256x256 .bf16) (harg2 : arg2.IsWhole) (arg3 : Memref sig .tc .vmem S256x256 .f32) (harg3 : arg3.IsWhole) (arg4 : Memref sig .tc .vmem S1x256 .f32) (harg4 : arg4.IsWhole) (arg5 : Memref sig .tc .vmem S1x5000x256 .f32) (harg5 : arg5.IsWhole)
    (x0 : Vec Ideal S1x5000x256 .f32) (x1 : Vec Ideal S256x256 .bf16) (x2 : Vec Ideal S256x256 .f32) (x3 : Vec Ideal S1x256 .f32) :
    out0_A_4 (F := Ideal) c i arg1 harg1 arg2 harg2 arg3 harg3 arg4 harg4 arg5 harg5 x0 x1 x2 x3 = blockVal x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (blockVal x0 x1 x2 x3) _ ?_ y (cover0_A_4 c i arg1 harg1 arg2 harg2 arg3 harg3 arg4 harg4 arg5 harg5 x0 x1 x2 x3 y)
  unfold kernelRun0_A
  dsimp only
  sl_unfold_words
  intro p hp
  simp only [List.mem_cons, List.not_mem_nil, or_false] at hp
  rcases hp with rfl | rfl | rfl | rfl | rfl <;> intro x <;>
    simp only [View.readAt_eq_ld, harg1.read_unread, harg2.read_unread, harg3.read_unread, harg4.read_unread,
      View.ld_unit_zero (S := S256x256) zero2, View.ld_unit_zero (S := S1x256) zero2, pay1_eq, pay9_eq, pay4_eq, pay7_eq]
  · exact piece_ok x0 x1 x2 x3 _ (totalRow_blocks x0 x2 x3 _ _ _ _ _) 4000 (by omega) _ x
  · exact piece_ok x0 x1 x2 x3 _ (totalRow_blocks x0 x2 x3 _ _ _ _ _) 3000 (by omega) _ x
  · exact piece_ok x0 x1 x2 x3 _ (totalRow_blocks x0 x2 x3 _ _ _ _ _) 2000 (by omega) _ x
  · exact piece_ok x0 x1 x2 x3 _ (totalRow_blocks x0 x2 x3 _ _ _ _ _) 1000 (by omega) _ x
  · exact piece_ok x0 x1 x2 x3 _ (totalRow_blocks x0 x2 x3 _ _ _ _ _) 0 (by omega) _ x

end Cert.GcnKernel

end
-- ==== Proof.HostPrefix.lean ====
/-
  The three arrays the host operations before the region write, read at an index: the transposed weights
  Wt(d, a) = W(a, d) (once as they are and once through a change of float format, the identity here), and the bias as
  a 1 × 256 row.
-/
import proofs.«140007_j80590766342917_2_alg».proof.Proof.Gen.KernelIdeal.Frame
import Idealize.ShloMosaic.Lib.Pipeline.Value
import Idealize.ShloMosaic.Lib.StableHlo.Run
import Idealize.ShloMosaic.Lib.ValueIdx

noncomputable section

namespace Cert.GcnKernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

theorem wt_eq (c : Dev nD) :
    (V m c main_call0_v0 : S256x256.Idx → EReal)
      = transpose S256x256 [1, 0] (m ((c : Thread nD τ).loc main_arg1) : S256x256.Idx → EReal) transposes_S256x256_S256x256_1_0 := by
  dsimp only [Gen.V, Gen.hostOps0]
  after_results
  rfl

theorem wtb_eq (c : Dev nD) :
    (V m c main_call0_v1 : S256x256.Idx → EReal)
      = transpose S256x256 [1, 0] (m ((c : Thread nD τ).loc main_arg1) : S256x256.Idx → EReal) transposes_S256x256_S256x256_1_0 := by
  dsimp only [Gen.V, Gen.hostOps0]
  after_results
  rfl

theorem bias_eq (c : Dev nD) :
    (V m c main_call0_v2 : S1x256.Idx → EReal)
      = shapeCast S1x256 (m ((c : Thread nD τ).loc main_arg2) : S256.Idx → EReal) shapeCasts_S256_S1x256 := by
  dsimp only [Gen.V, Gen.hostOps0]
  after_results
  rfl

/-- The transposed weights at (d, a) are the weights at (a, d). -/
theorem transposed_apply (X : S256x256.Idx → EReal) (d a : Fin 256) :
    transpose S256x256 [1, 0] X transposes_S256x256_S256x256_1_0 (ix2 d a) = X (ix2 a d) :=
  transpose_apply [1, 0] X transposes_S256x256_S256x256_1_0 (ix2 d a) (ix2 a d) (fun b => by
    match b with
    | ⟨0, _⟩ => rfl
    | ⟨1, _⟩ => rfl)

theorem wt_apply (c : Dev nD) (d a : Fin 256) :
    (V m c main_call0_v0 : S256x256.Idx → EReal) (ix2 d a) = (m ((c : Thread nD τ).loc main_arg1) : S256x256.Idx → EReal) (ix2 a d) := by
  rw [wt_eq]; exact transposed_apply _ d a

theorem wtb_apply (c : Dev nD) (d a : Fin 256) :
    (V m c main_call0_v1 : S256x256.Idx → EReal) (ix2 d a) = (m ((c : Thread nD τ).loc main_arg1) : S256x256.Idx → EReal) (ix2 a d) := by
  rw [wtb_eq]; exact transposed_apply _ d a

theorem bias_apply (c : Dev nD) (a : Fin 256) :
    (V m c main_call0_v2 : S1x256.Idx → EReal) (ix2 0 a) = (m ((c : Thread nD τ).loc main_arg2) : S256.Idx → EReal) (ix1 a) := by
  rw [bias_eq]
  exact shapeCast_apply _ shapeCasts_S256_S1x256 (ix2 0 a) (ix1 a) (by
    rw [Shape.rowMajor_val_one, Shape.rowMajor_val_two]
    show a.val = (0 : ℕ) * 256 + a.val
    omega)

end Cert.GcnKernel

end
-- ==== Proof.LibVariance.lean ====
/- A general lemma about the two ways of writing a variance.

   For finitely many REAL numbers y_i and N their count (N ≠ 0), with S = Σ y_i and Q = Σ y_i²:
       Q/N − (S/N)²  =  (Σ (y_i − S/N)²) / N,
   since Σ (y_i − μ)² = Q − 2μS + Nμ² and μ = S/N gives Q − S²/N. The second theorem is the same equation
   between extended reals, each y_i a real seen as an extended real, every quotient the ideal instance's division
   by the real N: all the quantities are then real and the equation is the real one under the coercion. On
   extended reals in general the law is false (it distributes a product over a sum), which is why it is stated
   at finite entries only. Batch normalisation's statistics meet here: one program accumulates S and Q in one
   pass, the other centres first. -/
import Idealize.ShloMosaic.PureOps.Ideal

namespace Cert.Lib.Variance

open Idealize.ShloMosaic

variable {ι : Type} [Fintype ι]

/-- A finite sum of reals, each seen as an extended real, is the real sum seen as an extended real. -/
theorem coe_sum {κ : Type} (s : Finset κ) (f : κ → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: the mean of the squares less the square of the mean is the mean of the squared deviations
    (quotients written as products with 1/N, the form the extended-real division by a real unfolds to). -/
theorem real_var (y : ι → ℝ) (N : ℝ) (hN : (Fintype.card ι : ℝ) = N) (h0 : N ≠ 0) :
    (∑ i, y i * y i) * (1 / N) - (∑ i, y i) * (1 / N) * ((∑ i, y i) * (1 / N))
      = (∑ i, (y i - (∑ j, y j) * (1 / N)) * (y i - (∑ j, y j) * (1 / N))) * (1 / N) := by
  have hsq : ∀ (μ : ℝ), ∑ i, (y i - μ) * (y i - μ) = (∑ i, y i * y i) - 2 * μ * (∑ i, y i) + N * (μ * μ) := by
    intro μ
    have : ∀ i, (y i - μ) * (y i - μ) = y i * y i - 2 * μ * y i + μ * μ := fun i => by ring
    simp only [this, Finset.sum_add_distrib, Finset.sum_sub_distrib, ← Finset.mul_sum, Finset.sum_const,
      Finset.card_univ, nsmul_eq_mul, hN]
    ring
  rw [hsq]
  field_simp
  ring

/-- The same between extended reals at finite entries, in the ideal instance's spelling: every quotient is
    the division by the real N. -/
theorem ideal_var (y : ι → ℝ) (N : ℝ) (hN : (Fintype.card ι : ℝ) = N) (h0 : N ≠ 0) :
    Ideal.div (∑ i, ((y i : ℝ) : EReal) * ((y i : ℝ) : EReal)) (N : EReal)
        - Ideal.div (∑ i, ((y i : ℝ) : EReal)) (N : EReal) * Ideal.div (∑ i, ((y i : ℝ) : EReal)) (N : EReal)
      = Ideal.div (∑ i, (((y i : ℝ) : EReal) - Ideal.div (∑ j, ((y j : ℝ) : EReal)) (N : EReal))
            * (((y i : ℝ) : EReal) - Ideal.div (∑ j, ((y j : ℝ) : EReal)) (N : EReal))) (N : EReal) := by
  simp only [Ideal.div_coe h0, ← EReal.coe_mul, coe_sum, ← EReal.coe_sub]
  exact congrArg Real.toEReal (real_var y N hN h0)

end Cert.Lib.Variance
-- ==== Proof.SumLaw.lean ====
/-
  The arithmetic that joins the two programs.

  One program projects the row total and then removes one row's projection; the other projects the difference:
      (Σ_d T d · w d + β) − Σ_d e d · w d  =  Σ_d (T d − e d) · w d + β.
  Over the reals this is distributivity and the splitting of a sum. On the extended reals it is stated at real
  entries only: it moves a factor across a difference, which fails at the infinities.
-/
import Mathlib.Data.EReal.Inv
import Mathlib.Algebra.BigOperators.Ring.Finset
import proofs.«140007_j80590766342917_2_alg».proof.Proof.LibVariance

namespace Cert.SumLaw

open Finset

/-- Over the reals. -/
theorem real_law {D : Type} [Fintype D] (T e w : D → ℝ) (β : ℝ) :
    (∑ d, T d * w d + β) - ∑ d, e d * w d = ∑ d, (T d - e d) * w d + β := by
  simp only [sub_mul, Finset.sum_sub_distrib]
  ring

/-- The same between extended reals, every entry a real seen as an extended real. -/
theorem ereal_law {D : Type} [Fintype D] (T e w : D → ℝ) (β : ℝ) :
    (∑ d, ((T d : ℝ) : EReal) * ((w d : ℝ) : EReal) + ((β : ℝ) : EReal)) - ∑ d, ((e d : ℝ) : EReal) * ((w d : ℝ) : EReal)
      = ∑ d, (((T d : ℝ) : EReal) - ((e d : ℝ) : EReal)) * ((w d : ℝ) : EReal) + ((β : ℝ) : EReal) := by
  simp only [← EReal.coe_mul, ← EReal.coe_sub, ← EReal.coe_add, Cert.Lib.Variance.coe_sum]
  exact congrArg Real.toEReal (real_law T e w β)

end Cert.SumLaw
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.Spec.lean ====
/-
  The result as one function of the three argument arrays, in the two arrangements the programs compute, and that
  the arrangements agree at real entries.

  E is the [50, 5000, 256] array of rows, W the [256, 256] weights (output column first), B the bias. With
  T(b, d) = Σ_n E(b, n, d) the total of batch b's rows:
    the reference:  out(b, n, a) = Σ_d (T(b, d) − E(b, n, d)) · W(a, d) + B(a);
    the kernel:     out(b, n, a) = (Σ_d T'(b, d) · W(a, d) + B(a)) − Σ_d E(b, n, d) · W(a, d),
  where T' is the same total taken as five chunks of 1000 rows added in order. T' = T needs only that + is
  commutative and associative; the two arrangements agree by the law of SumLaw, at real entries.
-/
import Idealize.ShloMosaic.Lib.ValueIdx
import proofs.«140007_j80590766342917_2_alg».proof.Proof.SumLaw
import proofs.«140007_j80590766342917_2_alg».proof.Proof.LibGemmSplit
import proofs.«140007_j80590766342917_2_alg».proof.Proof.LibFinite

noncomputable section

namespace Cert.GcnSpec

open Idealize.ShloMosaic Idealize.ShloMosaic.ValueIdx Cert.Lib.Finite

/-- The total of batch b's 5000 rows at column d. -/
def total (E : (⟨3, ![50, 5000, 256]⟩ : Shape).Idx → EReal) (b : Fin 50) (d : Fin 256) : EReal :=
  ∑ n : Fin 5000, E (ix3 b n d)

/-- The sum of the 1000 rows from row o on. -/
def chunk (E : (⟨3, ![50, 5000, 256]⟩ : Shape).Idx → EReal) (b : Fin 50) (o : ℕ) (ho : o + 1000 ≤ 5000) (d : Fin 256) : EReal :=
  ∑ r : Fin 1000, E (ix3 b ⟨o + r.val, by have := r.isLt; omega⟩ d)

/-- The total as the kernel takes it: five chunks added in order. -/
def totalChunked (E : (⟨3, ![50, 5000, 256]⟩ : Shape).Idx → EReal) (b : Fin 50) (d : Fin 256) : EReal :=
  (((chunk E b 0 (by omega) d + chunk E b 1000 (by omega) d) + chunk E b 2000 (by omega) d) + chunk E b 3000 (by omega) d)
    + chunk E b 4000 (by omega) d

theorem totalChunked_eq (E : (⟨3, ![50, 5000, 256]⟩ : Shape).Idx → EReal) (b : Fin 50) (d : Fin 256) :
    totalChunked E b d = total E b d := by
  unfold total
  rw [Cert.LibGemmSplit.sum_blocks (n := 5) (b := 1000) (by norm_num) (fun n : Fin 5000 => E (ix3 b n d)), Fin.sum_univ_five]
  unfold totalChunked chunk
  refine congrArg₂ (· + ·) (congrArg₂ (· + ·) (congrArg₂ (· + ·) (congrArg₂ (· + ·) ?_ ?_) ?_) ?_) ?_ <;>
    exact Finset.sum_congr rfl fun r _ => congrArg (fun n => E (ix3 b n d)) (Fin.ext (by simp))

/-- The kernel's arrangement. -/
def kerOut (E : (⟨3, ![50, 5000, 256]⟩ : Shape).Idx → EReal) (W : (⟨2, ![256, 256]⟩ : Shape).Idx → EReal)
    (B : (⟨1, ![256]⟩ : Shape).Idx → EReal) (b : Fin 50) (n : Fin 5000) (a : Fin 256) : EReal :=
  ((∑ d : Fin 256, totalChunked E b d * W (ix2 a d)) + B (ix1 a)) - ∑ d : Fin 256, E (ix3 b n d) * W (ix2 a d)

/-- The reference's arrangement. -/
def refOut (E : (⟨3, ![50, 5000, 256]⟩ : Shape).Idx → EReal) (W : (⟨2, ![256, 256]⟩ : Shape).Idx → EReal)
    (B : (⟨1, ![256]⟩ : Shape).Idx → EReal) (b : Fin 50) (n : Fin 5000) (a : Fin 256) : EReal :=
  (∑ d : Fin 256, (total E b d - E (ix3 b n d)) * W (ix2 a d)) + B (ix1 a)

/-- At real entries the two arrangements are one function. -/
theorem kerOut_eq_refOut (E : (⟨3, ![50, 5000, 256]⟩ : Shape).Idx → EReal) (W : (⟨2, ![256, 256]⟩ : Shape).Idx → EReal)
    (B : (⟨1, ![256]⟩ : Shape).Idx → EReal) (hE : ∀ i, IsReal (E i)) (hW : ∀ i, IsReal (W i)) (hB : ∀ i, IsReal (B i))
    (b : Fin 50) (n : Fin 5000) (a : Fin 256) : kerOut E W B b n a = refOut E W B b n a := by
  unfold kerOut refOut
  simp only [totalChunked_eq]
  choose e he using hE
  choose w hw using hW
  choose β hβ using hB
  simp only [total, he, hw, hβ, Cert.Lib.Variance.coe_sum]
  exact Cert.SumLaw.ereal_law (fun d => ∑ n : Fin 5000, e (ix3 b n d)) (fun d => e (ix3 b n d)) (fun d => w (ix2 a d)) (β (ix1 a))

/-- The two as arrays. -/
def kerArr (E : (⟨3, ![50, 5000, 256]⟩ : Shape).Idx → EReal) (W : (⟨2, ![256, 256]⟩ : Shape).Idx → EReal)
    (B : (⟨1, ![256]⟩ : Shape).Idx → EReal) : (⟨3, ![50, 5000, 256]⟩ : Shape).Idx → EReal :=
  fun i => kerOut E W B (i 0) (i 1) (i 2)

def refArr (E : (⟨3, ![50, 5000, 256]⟩ : Shape).Idx → EReal) (W : (⟨2, ![256, 256]⟩ : Shape).Idx → EReal)
    (B : (⟨1, ![256]⟩ : Shape).Idx → EReal) : (⟨3, ![50, 5000, 256]⟩ : Shape).Idx → EReal :=
  fun i => refOut E W B (i 0) (i 1) (i 2)

theorem kerArr_eq_refArr (E : (⟨3, ![50, 5000, 256]⟩ : Shape).Idx → EReal) (W : (⟨2, ![256, 256]⟩ : Shape).Idx → EReal)
    (B : (⟨1, ![256]⟩ : Shape).Idx → EReal) (hE : ∀ i, IsReal (E i)) (hW : ∀ i, IsReal (W i)) (hB : ∀ i, IsReal (B i)) :
    kerArr E W B = refArr E W B :=
  funext fun i => kerOut_eq_refOut E W B hE hW hB (i 0) (i 1) (i 2)

end Cert.GcnSpec

end
-- ==== Proof.Final.lean ====
/-
  From blocks to the array. Grid point t works on batch t: its input blocks are batch t's rows, the whole transposed
  weights (twice) and the bias row, so what it writes back is block t of the kernel's arrangement of the three
  argument arrays; the 50 blocks tile the result array (batch b's rows are in point b's block), so the array ends
  holding that arrangement.
-/
import proofs.«140007_j80590766342917_2_alg».proof.Proof.Block
import proofs.«140007_j80590766342917_2_alg».proof.Proof.HostPrefix
import proofs.«140007_j80590766342917_2_alg».proof.Proof.Spec
import proofs.«140007_j80590766342917_2_alg».proof.Proof.Gen.KernelIdeal.Value

noncomputable section

namespace Cert.GcnKernel

open Idealize.ShloMosaic Idealize.ShloMosaic.TcCoe Idealize.ShloMosaic.ValueIdx Idealize.SL.Sem
open Idealize.ShloMosaic.Pipeline (Dat)
open Cert.KernelIdeal Cert.KernelIdeal.Gen Cert.GcnSpec

/-! ## A block of the kernel's arrangement -/

/-- Over blocks that read the arrays at batch b, the block function is the kernel's arrangement at batch b. -/
theorem blockVal_ix (E : (⟨3, ![50, 5000, 256]⟩ : Shape).Idx → EReal) (W : (⟨2, ![256, 256]⟩ : Shape).Idx → EReal)
    (B : (⟨1, ![256]⟩ : Shape).Idx → EReal)
    (x0 : Vec Ideal S1x5000x256 .f32) (x1 : Vec Ideal S256x256 .bf16) (x2 : Vec Ideal S256x256 .f32) (x3 : Vec Ideal S1x256 .f32)
    (b : Fin 50) (h0 : ∀ (n : Fin 5000) (d : Fin 256), x0 (ix3 0 n d) = E (ix3 b n d))
    (h1 : ∀ d a : Fin 256, x1 (ix2 d a) = W (ix2 a d)) (h2 : ∀ d a : Fin 256, x2 (ix2 d a) = W (ix2 a d))
    (h3 : ∀ a : Fin 256, x3 (ix2 0 a) = B (ix1 a)) (n : Fin 5000) (a : Fin 256) :
    blockVal x0 x1 x2 x3 (ix3 0 n a) = kerOut E W B b n a := by
  show blockRow x0 x2 x3 a - ∑ d : Fin 256, x0 (ix3 0 n d) * x1 (ix2 d a) = _
  unfold blockRow blockTotal blockChunk kerOut totalChunked chunk
  simp only [h0, h1, h2, h3]

theorem blockVal_eq (E : (⟨3, ![50, 5000, 256]⟩ : Shape).Idx → EReal) (W : (⟨2, ![256, 256]⟩ : Shape).Idx → EReal)
    (B : (⟨1, ![256]⟩ : Shape).Idx → EReal)
    (x0 : Vec Ideal S1x5000x256 .f32) (x1 : Vec Ideal S256x256 .bf16) (x2 : Vec Ideal S256x256 .f32) (x3 : Vec Ideal S1x256 .f32)
    (b : Fin 50) (h0 : ∀ (n : Fin 5000) (d : Fin 256), x0 (ix3 0 n d) = E (ix3 b n d))
    (h1 : ∀ d a : Fin 256, x1 (ix2 d a) = W (ix2 a d)) (h2 : ∀ d a : Fin 256, x2 (ix2 d a) = W (ix2 a d))
    (h3 : ∀ a : Fin 256, x3 (ix2 0 a) = B (ix1 a)) (y : S1x5000x256.Idx) :
    blockVal x0 x1 x2 x3 y = kerOut E W B b (y 1) (y 2) := by
  obtain ⟨z, n, a, rfl⟩ : ∃ (z : Fin 1) (n : Fin 5000) (a : Fin 256), y = ix3 z n a := ⟨y 0, y 1, y 2, eq_ix3 y⟩
  obtain rfl : z = 0 := Subsingleton.elim _ _
  exact blockVal_ix E W B x0 x1 x2 x3 b h0 h1 h2 h3 n a

/-! ## The windows' blocks at a point -/

variable (m : (ℓ : Loc nD τ sig) → Buf (Elt Ideal) ℓ) (ρ : Dev nD → PrngReg)

/-- The printed index maps over the 50 points: the rows' and the result's blocks move with the point along the batch
    axis; the weights' and the bias's blocks never move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 50 := by
  have hN : cfg0.N = 50 := N_0
  have := t.isLt
  omega

/-- The rows' block at point t is batch t. -/
theorem rows_read (c : Dev nD) (t : Fin cfg0.N) (n : Fin 5000) (d : Fin 256) :
    iblk m c 0 t (ix3 0 n d) = (m ((c : Thread nD τ).loc main_arg0) : S50x5000x256.Idx → EReal) (ix3 ⟨t.val, point_lt t⟩ n d) := by
  obtain ⟨e0, e1, e2, -⟩ := idx_facts t
  show V m c main_arg0 (((cfg0.win 0).blk t).view.emb (ix3 0 n d)) = _
  rw [V_main_arg0]
  refine congrArg (m ((c : Thread nD τ).loc main_arg0) : S50x5000x256.Idx → EReal) (funext fun ax => Fin.ext ?_)
  match ax with
  | ⟨0, _⟩ => show win0_0.index t (0 : Fin 3) * 1 + 1 * 0 = t.val; omega
  | ⟨1, _⟩ => show win0_0.index t (1 : Fin 3) * 5000 + 1 * n.val = n.val; omega
  | ⟨2, _⟩ => show win0_0.index t (2 : Fin 3) * 256 + 1 * d.val = d.val; omega

/-- The two weight blocks at any point are the transposed weights. -/
theorem wtb_read (c : Dev nD) (t : Fin cfg0.N) (d a : Fin 256) :
    iblk m c 1 t (ix2 d a) = (m ((c : Thread nD τ).loc main_arg1) : S256x256.Idx → EReal) (ix2 a d) := by
  obtain ⟨-, -, -, e0, e1, -⟩ := idx_facts t
  show V m c main_call0_v1 (((cfg0.win 1).blk t).view.emb (ix2 d a)) = _
  refine (congrArg (V m c main_call0_v1 : S256x256.Idx → EReal) (funext fun ax => Fin.ext ?_ : _ = ix2 d a)).trans (wtb_apply m c d a)
  match ax with
  | ⟨0, _⟩ => show win0_1.index t (0 : Fin 2) * 256 + 1 * d.val = d.val; omega
  | ⟨1, _⟩ => show win0_1.index t (1 : Fin 2) * 256 + 1 * a.val = a.val; omega

theorem wt_read (c : Dev nD) (t : Fin cfg0.N) (d a : Fin 256) :
    iblk m c 2 t (ix2 d a) = (m ((c : Thread nD τ).loc main_arg1) : S256x256.Idx → EReal) (ix2 a d) := by
  obtain ⟨-, -, -, -, -, e0, e1, -⟩ := idx_facts t
  show V m c main_call0_v0 (((cfg0.win 2).blk t).view.emb (ix2 d a)) = _
  refine (congrArg (V m c main_call0_v0 : S256x256.Idx → EReal) (funext fun ax => Fin.ext ?_ : _ = ix2 d a)).trans (wt_apply m c d a)
  match ax with
  | ⟨0, _⟩ => show win0_2.index t (0 : Fin 2) * 256 + 1 * d.val = d.val; omega
  | ⟨1, _⟩ => show win0_2.index t (1 : Fin 2) * 256 + 1 * a.val = a.val; omega

/-- The bias block at any point is the bias as a row. -/
theorem bias_read (c : Dev nD) (t : Fin cfg0.N) (a : Fin 256) :
    iblk m c 3 t (ix2 0 a) = (m ((c : Thread nD τ).loc main_arg2) : S256.Idx → EReal) (ix1 a) := by
  obtain ⟨-, -, -, -, -, -, -, e0, e1, -⟩ := idx_facts t
  show V m c main_call0_v2 (((cfg0.win 3).blk t).view.emb (ix2 0 a)) = _
  refine (congrArg (V m c main_call0_v2 : S1x256.Idx → EReal) (funext fun ax => Fin.ext ?_ : _ = ix2 0 a)).trans (bias_apply m c a)
  match ax with
  | ⟨0, _⟩ => show win0_3.index t (0 : Fin 2) * 1 + 1 * 0 = 0; omega
  | ⟨1, _⟩ => show win0_3.index t (1 : Fin 2) * 256 + 1 * a.val = a.val; omega

/-! ## What a point writes back, the cover, the array -/

/-- Point t writes back block t of the kernel's arrangement of the argument arrays. -/
theorem flushed_eq (c : Dev nD) (t : Fin cfg0.N) :
    (dats m 0 c).flushed 4 t = ((cfg0.win 4).blk t).view.read (Elt Ideal) (kerArr (m ((c : Thread nD τ).loc main_arg0) : S50x5000x256.Idx → EReal) (m ((c : Thread nD τ).loc main_arg1) : S256x256.Idx → EReal) (m ((c : Thread nD τ).loc main_arg2) : S256.Idx → EReal)) := by
  refine (Cert.KernelIdeal.Value.flushed4_A m c t).trans ?_
  refine (congrArg ((cfg0.win 4).cut (grid0.coords t)) (out_eq c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t))).trans ?_
  obtain ⟨-, -, -, -, -, -, -, -, -, e0, e1, e2⟩ := idx_facts t
  funext j
  show blockVal (iblk m c 0 t) (iblk m c 1 t) (iblk m c 2 t) (iblk m c 3 t) j
    = kerArr (m ((c : Thread nD τ).loc main_arg0) : S50x5000x256.Idx → EReal) (m ((c : Thread nD τ).loc main_arg1) : S256x256.Idx → EReal) (m ((c : Thread nD τ).loc main_arg2) : S256.Idx → EReal) (((cfg0.win 4).blk t).view.emb j)
  refine (blockVal_eq (m ((c : Thread nD τ).loc main_arg0) : S50x5000x256.Idx → EReal) (m ((c : Thread nD τ).loc main_arg1) : S256x256.Idx → EReal) (m ((c : Thread nD τ).loc main_arg2) : S256.Idx → EReal) (iblk m c 0 t) (iblk m c 1 t) (iblk m c 2 t) (iblk m c 3 t) ⟨t.val, point_lt t⟩
    (rows_read m c t) (wtb_read m c t) (wt_read m c t) (bias_read m c t) j).trans ?_
  have hj0 : (j 0).val < 1 := (j 0).isLt
  have hj1 : (j 1).val < 5000 := (j 1).isLt
  have hj2 : (j 2).val < 256 := (j 2).isLt
  have p0 : (⟨t.val, point_lt t⟩ : Fin 50) = ((cfg0.win 4).blk t).view.emb j 0 :=
    Fin.ext (by show t.val = win0_4.index t (0 : Fin 3) * 1 + 1 * (j 0).val; omega)
  have p1 : (j 1 : Fin 5000) = ((cfg0.win 4).blk t).view.emb j 1 :=
    Fin.ext (by show (j 1).val = win0_4.index t (1 : Fin 3) * 5000 + 1 * (j 1).val; omega)
  have p2 : (j 2 : Fin 256) = ((cfg0.win 4).blk t).view.emb j 2 :=
    Fin.ext (by show (j 2).val = win0_4.index t (2 : Fin 3) * 256 + 1 * (j 2).val; omega)
  exact congr (congr (congrArg (kerOut (m ((c : Thread nD τ).loc main_arg0) : S50x5000x256.Idx → EReal) (m ((c : Thread nD τ).loc main_arg1) : S256x256.Idx → EReal) (m ((c : Thread nD τ).loc main_arg2) : S256.Idx → EReal)) p0) p1) p2

/-- An index of the result array is in point t's block iff each coordinate is in the block's range on its axis. -/
theorem mem_blk (t : Fin cfg0.N) (i : S50x5000x256.Idx) :
    i ∈ ((cfg0.win 4).blk t).view.set ↔ ∀ a : Fin 3, win0_4.index t a * S1x5000x256.size a ≤ (i a).val
      ∧ (i a).val < win0_4.index t a * S1x5000x256.size a + S1x5000x256.size a := by
  show i ∈ ((View.whole main_v0).slice (win0_4.rect t)).set ↔ _
  rw [View.set_slice_whole, Rect.mem_set_unit]
  exact Iff.rfl

/-- Batch b's rows are in point b's block. -/
theorem cover (c : Dev nD) (i : S50x5000x256.Idx) :
    ∃ t : Fin cfg0.N, (cfg0.win 4).flush t = true ∧ i ∈ ((cfg0.win 4).blk t).view.set := by
  have hN : cfg0.N = 50 := N_0
  have hi0 : (i 0).val < 50 := (i 0).isLt
  have hi1 : (i 1).val < 5000 := (i 1).isLt
  have hi2 : (i 2).val < 256 := (i 2).isLt
  obtain ⟨t, ht⟩ : ∃ t : Fin cfg0.N, t.val = (i 0).val := ⟨⟨(i 0).val, by omega⟩, rfl⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 5000 ≤ (i 1).val ∧ (i 1).val < win0_4.index t (1 : Fin 3) * 5000 + 5000
    omega
  | ⟨2, _⟩ =>
    show win0_4.index t (2 : Fin 3) * 256 ≤ (i 2).val ∧ (i 2).val < win0_4.index t (2 : Fin 3) * 256 + 256
    omega

/-- The result array after the run is the kernel's arrangement of the argument arrays. -/
theorem final (c : Dev nD) : (dats m 0 c).arrAt 4 cfg0.N = kerArr (m ((c : Thread nD τ).loc main_arg0) : S50x5000x256.Idx → EReal) (m ((c : Thread nD τ).loc main_arg1) : S256x256.Idx → EReal) (m ((c : Thread nD τ).loc main_arg2) : S256.Idx → EReal) :=
  (dats m 0 c).arrAt_eq_of_cover 4 (kerArr (m ((c : Thread nD τ).loc main_arg0) : S50x5000x256.Idx → EReal) (m ((c : Thread nD τ).loc main_arg1) : S256x256.Idx → EReal) (m ((c : Thread nD τ).loc main_arg2) : S256.Idx → EReal)) (fun t _ => flushed_eq m c t) (cover c)

/-- The run, read: the result at the kernel's arrangement, the arguments unchanged. -/
theorem run : θ_run defs (onTc (τ := τ) (main (F := Ideal))) ⟨m, fun _ => 0, ρ⟩ fun r => ∀ c : Dev nD,
      r.2.mem ((c : Thread nD τ).loc main_v0) = kerArr (m ((c : Thread nD τ).loc main_arg0) : S50x5000x256.Idx → EReal) (m ((c : Thread nD τ).loc main_arg1) : S256x256.Idx → EReal) (m ((c : Thread nD τ).loc main_arg2) : S256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.GcnKernel

end
-- ==== Proof.RefRead.lean ====
/-
  The reference's result, read one operation at a time at an index, is the reference's arrangement:
  entry (b, n, a) is Σ_d (T(b, d) − E(b, n, d)) · W(a, d) + B(a), with T the row total starting from zero.
-/
import proofs.«140007_j80590766342917_2_alg».proof.Proof.Gen.ReferenceIdeal.Read
import proofs.«140007_j80590766342917_2_alg».proof.Proof.Spec
import Idealize.ShloMosaic.PureOps.Ideal.Laws

noncomputable section

namespace Cert.GcnRef

open Idealize.ShloMosaic Idealize.ShloMosaic.ValueIdx Cert.ReferenceIdeal Cert.ReferenceIdeal.Read Cert.GcnSpec

/-- The difference the reference contracts: the row total less the row, at (b, n, d). -/
theorem diff_apply (E : (⟨S50x5000x256, .f32⟩ : BufTy).Contents (Elt Ideal)) (b : Fin 50) (n : Fin 5000) (d : Fin 256) :
    val_main_v3 (F := Ideal) E (ix3 b n d) = total E b d - E (ix3 b n d) := by
  rw [val_main_v3_apply, val_main_v2_apply, val_main_v1_apply, val_main_v0_apply, val_main_cst_apply]
  show (Ideal.ofBits .f32 0x00000000#32 + ∑ k : Fin 5000, E (idx_main_v0 (idx_main_v1 (idx_main_v2 (ix3 b n d))) k)) - E (ix3 b n d) = _
  rw [Ideal.ofBits_zero_f32, zero_add]
  unfold total
  refine congrArg (· - E (ix3 b n d)) (Finset.sum_congr rfl fun k _ => congrArg E (funext fun ax => Fin.ext ?_))
  match ax with
  | ⟨0, _⟩ => rfl
  | ⟨1, _⟩ => rfl
  | ⟨2, _⟩ => rfl

theorem ref_eq (E : (⟨S50x5000x256, .f32⟩ : BufTy).Contents (Elt Ideal)) (W : (⟨S256x256, .f32⟩ : BufTy).Contents (Elt Ideal))
    (B : (⟨S256, .f32⟩ : BufTy).Contents (Elt Ideal)) : val_main_v7 (F := Ideal) E W B = refArr E W B := by
  funext i
  obtain ⟨b, n, a, rfl⟩ : ∃ (b : Fin 50) (n : Fin 5000) (a : Fin 256), i = ix3 b n a := ⟨i 0, i 1, i 2, eq_ix3 i⟩
  rw [val_main_v7_apply, val_main_v4_apply, val_main_v6_apply, val_main_v5_apply]
  show (∑ k : Fin 256, val_main_v3 (F := Ideal) E (lidx_main_v4 (ix3 b n a) k) * W (ridx_main_v4 (ix3 b n a) k))
      + B (idx_main_v5 (idx_main_v6 (ix3 b n a))) = refOut E W B b n a
  unfold refOut
  refine congrArg₂ (· + ·) (Finset.sum_congr rfl fun d _ => congrArg₂ (· * ·) ?_ (congrArg W (funext fun ax => Fin.ext ?_)))
    (congrArg B (funext fun ax => Fin.ext ?_))
  · refine (congrArg (val_main_v3 (F := Ideal) E) (funext fun ax => Fin.ext ?_)).trans (diff_apply E b n d)
    match ax with
    | ⟨0, _⟩ => rfl
    | ⟨1, _⟩ => rfl
    | ⟨2, _⟩ => rfl
  · match ax with
    | ⟨0, _⟩ => rfl
    | ⟨1, _⟩ => rfl
  · match ax with
    | ⟨0, _⟩ => rfl

end Cert.GcnRef

end
-- ==== Proof.Finite.lean ====
/-
  The precondition, read: every entry of the three argument arrays is a real number.

  The precondition is the conjunction of three tests "every |x| is below +∞", each an and-reduction of elementwise
  comparisons. An extended real whose absolute value max(x, −x) is below +∞ is neither infinity.
-/
import proofs.«140007_j80590766342917_2_alg».proof.Pre_finite_inputs
import proofs.«140007_j80590766342917_2_alg».proof.Proof.LibFinite
import Idealize.ShloMosaic.PureOps.Ideal.Laws
import Idealize.ShloMosaic.Lib.ReduceAll
import Idealize.ShloMosaic.Lib.Affine
import Idealize.ShloMosaic.Lib.ValueIdx

noncomputable section

namespace Cert.GcnFinite

open Idealize.ShloMosaic Cert.Lib.Finite

/-- The f32 pattern of +∞ is +∞. -/
theorem ofBits_inf : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of the three arrays is a real. -/
theorem real_of_pre [Cert.Pre_finite_inputs.Facts] (E : FVec Ideal Cert.Pre_finite_inputs.S50x5000x256 .f32)
    (W : FVec Ideal Cert.Pre_finite_inputs.S256x256 .f32) (B : FVec Ideal Cert.Pre_finite_inputs.S256 .f32)
    (h : Cert.Pre_finite_inputs.fn (F := Ideal) E W B = fun _ => 1#1) :
    (∀ i, IsReal (E i)) ∧ (∀ i, IsReal (W i)) ∧ (∀ i, IsReal (B i)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => real_of_abs_lt (E i) ?_, fun i => real_of_abs_lt (W i) ?_, fun i => real_of_abs_lt (B i) ?_⟩
  · exact Host.reduce_andi_all _ _ _ _ _ h0' i
  · exact Host.reduce_andi_all _ _ _ _ _ h1 i
  · exact Host.reduce_andi_all _ _ _ _ _ h2 i

end Cert.GcnFinite

end
-- ==== Proof.lean ====
/-
  Message passing on a complete graph followed by a linear layer: for rows E[50, 5000, 256], weights W[256, 256]
  and bias B[256], with T(b, d) = Σ_n E(b, n, d),
      out(b, n, a) = Σ_d (T(b, d) − E(b, n, d)) · W(a, d) + B(a).
  The reference computes exactly this. The kernel, one grid point per batch b, forms the projected total
  Σ_d T(b, d) · W(a, d) + B(a) once (T taken as five chunks of 1000 rows) and subtracts each row's own projection
  Σ_d E(b, n, d) · W(a, d), storing the result in five tiles of 1000 rows. Over the extended reals the two agree
  when every input is finite: the law is distributivity of the product over a difference, which needs real entries;
  the regrouping of T into chunks needs nothing.

  The modules: Payload (the stores' arithmetic at an index), Block (one point's output block as one function of its
  input blocks), HostPrefix (the transposed weights and the bias row the region finds), Final (blocks to the array),
  RefRead (the reference at an index), Finite (the precondition makes every entry real), Spec and SumLaw (the two
  arrangements and the law between them).
-/
import proofs.«140007_j80590766342917_2_alg».proof.Defs
import proofs.«140007_j80590766342917_2_alg».proof.Proof.Gen.Kernel
import proofs.«140007_j80590766342917_2_alg».proof.Proof.Gen.Kernel.Frame
import proofs.«140007_j80590766342917_2_alg».proof.Proof.Gen.KernelIdeal
import proofs.«140007_j80590766342917_2_alg».proof.Proof.Gen.KernelIdeal.Frame
import proofs.«140007_j80590766342917_2_alg».proof.Proof.Gen.KernelIdeal.Value
import proofs.«140007_j80590766342917_2_alg».proof.Proof.Gen.ReferenceIdeal
import proofs.«140007_j80590766342917_2_alg».proof.Proof.Gen.ReferenceIdeal.Run
import proofs.«140007_j80590766342917_2_alg».proof.Proof.Gen.ReferenceIdeal.Read
import proofs.«140007_j80590766342917_2_alg».proof.Proof.Gen.Pre_finite_inputs
import proofs.«140007_j80590766342917_2_alg».proof.Proof.Final
import proofs.«140007_j80590766342917_2_alg».proof.Proof.RefRead
import proofs.«140007_j80590766342917_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- Both programs end at one array: the kernel at its arrangement of the arguments, the reference at its own, and
    the two arrangements agree because the precondition makes every entry a real. -/
theorem algebraic : Cert.algebraic_KernelIdeal_ReferenceIdeal := by
  intro m ρ m' ρ' hpre hagree
  refine ⟨fun c => Cert.GcnSpec.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.GcnKernel.run m ρ, ?_⟩
  refine (θ_run Cert.ReferenceIdeal.defs _ _).mono (fun _ h c => ⟨(h c).1.trans ?_, (h c).2⟩)
    (Cert.ReferenceIdeal.Value.run (F := Ideal) m' ρ')
  obtain ⟨hE, hW, hB⟩ := Cert.GcnFinite.real_of_pre _ _ _ (hpre c)
  rw [Cert.ReferenceIdeal.Read.val_main_v7_eq, Cert.GcnRef.ref_eq, (hagree c).1, (hagree c).2.1, (hagree c).2.2]
  exact (Cert.GcnSpec.kerArr_eq_refArr _ _ _ hE hW hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
